-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S16x128x2048 : Shape := ⟨3, ![16, 128, 2048]⟩
abbrev S16x128 : Shape := ⟨2, ![16, 128]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S16x128x2048 : S_.BroadcastsInDim S16x128x2048 (![] : Fin 0 → Fin S16x128x2048.rank)
  reducesTo_S16x128x2048_S_d0_1_2 : S16x128x2048.ReducesTo [0, 1, 2] S_
  bcast_S_S16x128 : S_.BroadcastsInDim S16x128 (![] : Fin 0 → Fin S16x128.rank)
  reducesTo_S16x128_S_d0_1 : S16x128.ReducesTo [0, 1] S_

variable [Facts]

def fn {F : FTy → Type} [FloatOps F] (main_arg0 : FVec F S16x2048x1024 .f32) (main_arg1 : FVec F S16x128x2048 .f32) (main_arg2 : FVec F S16x128 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S16x128x2048 .f32 := Host.absf main_arg1
  let main_cst_0 : FVec F S_ .f32 := constant S_ .f32 0x7F800000#32
  let main_v5 : FVec F S16x128x2048 .f32 := broadcastInDim S16x128x2048 ![] bcast_S_S16x128x2048 main_cst_0
  let main_v6 : IVec S16x128x2048 1 := cmpf .olt main_v4 main_v5
  let main_c_1 : IVec S_ 1 := constantI S_ 1 1#1
  let main_v7 : IVec S_ 1 := (fun x v => Host.reduce IntOp.andi x v reducesTo_S16x128x2048_S_d0_1_2 h_S_) main_v6 main_c_1
  let main_v8 : IVec S_ 1 := andi main_v3 main_v7
  let main_v9 : FVec F S16x128 .f32 := Host.absf main_arg2
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  main_v13
-- ==== Kernel.lean ====
abbrev S16x2048x1024 : Shape := ⟨3, ![16, 2048, 1024]⟩
abbrev S16x128x2048 : Shape := ⟨3, ![16, 128, 2048]⟩
abbrev S16x128 : Shape := ⟨2, ![16, 128]⟩
abbrev S16x128x1 : Shape := ⟨3, ![16, 128, 1]⟩
abbrev S16x128x1024 : Shape := ⟨3, ![16, 128, 1024]⟩
abbrev S1x128x2048 : Shape := ⟨3, ![1, 128, 2048]⟩
abbrev S1x2048x1024 : Shape := ⟨3, ![1, 2048, 1024]⟩
abbrev S1x128x1 : Shape := ⟨3, ![1, 128, 1]⟩
abbrev S1x128x1024 : Shape := ⟨3, ![1, 128, 1024]⟩
abbrev S128x2048 : Shape := ⟨2, ![128, 2048]⟩
abbrev S2048x1024 : Shape := ⟨2, ![2048, 1024]⟩
abbrev S128x1024 : Shape := ⟨2, ![128, 1024]⟩
abbrev S128x1 : Shape := ⟨2, ![128, 1]⟩

abbrev nBuf : Space → Nat
  | .hbm => 5
  | .vmem => 8
  | .smem => 0
  | _ => 0

abbrev bufTy : (tb : Table) → Fin (tcTables nBuf tb) → BufTy
  | .hbm, ⟨0, _⟩ => ⟨S16x2048x1024, .f32⟩
  | .hbm, ⟨1, _⟩ => ⟨S16x128x2048, .f32⟩
  | .hbm, ⟨2, _⟩ => ⟨S16x128, .f32⟩
  | .hbm, ⟨3, _⟩ => ⟨S16x128x1, .f32⟩
  | .hbm, ⟨4, _⟩ => ⟨S16x128x1024, .f32⟩
  | .local _ .vmem, ⟨0, _⟩ => ⟨S1x128x2048, .f32⟩
  | .local _ .vmem, ⟨1, _⟩ => ⟨S1x128x2048, .f32⟩
  | .local _ .vmem, ⟨2, _⟩ => ⟨S1x2048x1024, .f32⟩
  | .local _ .vmem, ⟨3, _⟩ => ⟨S1x2048x1024, .f32⟩
  | .local _ .vmem, ⟨4, _⟩ => ⟨S1x128x1, .f32⟩
  | .local _ .vmem, ⟨5, _⟩ => ⟨S1x128x1, .f32⟩
  | .local _ .vmem, ⟨6, _⟩ => ⟨S1x128x1024, .f32⟩
  | .local _ .vmem, ⟨7, _⟩ => ⟨S1x128x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S16x128_S16x128x1_0_1 : S16x128.BroadcastsInDim S16x128x1 (![0, 1] : Fin 2 → Fin S16x128x1.rank)
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  bitsLt_bf16_f32 : FTy.bits .bf16 < FTy.bits .f32
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  broadcasts_S128x1_S128x1024 : S128x1.Broadcasts S128x1024
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  shapeCasts_S128x1024_S1x128x1024 : S128x1024.ShapeCasts S1x128x1024
  dot_S128x2048_S2048x1024_S128x1024_1_0_0_1_n_n_wf : DotDims.WF S128x2048 S2048x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x2048.size a ≤ S16x128x2048.size a
  hwx0_0 : ∀ i : grid0.Coords, EltTy.bits .f32 = 32 ∨ (Rect.block (s := S16x128x2048) S1x128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S16x2048x1024.size a
  hwx0_1 : ∀ i : grid0.Coords, EltTy.bits .f32 = 32 ∨ (Rect.block (s := S16x2048x1024) S1x2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x1.size a ≤ S16x128x1.size a
  hwx0_2 : ∀ i : grid0.Coords, EltTy.bits .f32 = 32 ∨ (Rect.block (s := S16x128x1) S1x128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x1024.size a ≤ S16x128x1024.size a
  hwx0_3 : ∀ i : grid0.Coords, EltTy.bits .f32 = 32 ∨ (Rect.block (s := S16x128x1024) S1x128x1024.size (cc0_transform_3 i) (hinb0_3 i)).WholeWords (EltTy.packing .f32)

variable [Facts₀]

def dot_S128x2048_S2048x1024_S128x1024_1_0_0_1_n_n : DotDims S128x2048 S2048x1024 S128x1024 where
  lhsContracting := [1]
  rhsContracting := [0]
  lhsNonContracting := [0]
  rhsNonContracting := [1]
  lhsBatch := []
  rhsBatch := []
  wf := dot_S128x2048_S2048x1024_S128x1024_1_0_0_1_n_n_wf

abbrev win0_0 : Pipeline.Window sig grid0 :=
  Pipeline.Window.ofSpec (Memref.whole main_arg1) S1x128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x2048x1024 : Shape := ⟨3, ![16, 2048, 1024]⟩
abbrev S16x128x2048 : Shape := ⟨3, ![16, 128, 2048]⟩
abbrev S16x128 : Shape := ⟨2, ![16, 128]⟩
abbrev S16x128x1024 : Shape := ⟨3, ![16, 128, 1024]⟩
abbrev S16x128x1 : Shape := ⟨3, ![16, 128, 1]⟩

abbrev nBuf : Space → Nat
  | .hbm => 7
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x128x2048, .f32⟩
  | .hbm, ⟨2, _⟩ => ⟨S16x128, .f32⟩
  | .hbm, ⟨3, _⟩ => ⟨S16x128x1024, .f32⟩
  | .hbm, ⟨4, _⟩ => ⟨S16x128x1, .f32⟩
  | .hbm, ⟨5, _⟩ => ⟨S16x128x1024, .f32⟩
  | .hbm, ⟨6, _⟩ => ⟨S16x128x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S16x128_S16x128x1_0_1 : S16x128.BroadcastsInDim S16x128x1 (![0, 1] : Fin 2 → Fin S16x128x1.rank)
  bcast_S16x128x1_S16x128x1024_0_1_2 : S16x128x1.BroadcastsInDim S16x128x1024 (![0, 1, 2] : Fin 3 → Fin S16x128x1024.rank)
  dot_S16x128x2048_S16x2048x1024_S16x128x1024_2_1_1_2_0_0_wf : DotDims.WF S16x128x2048 S16x2048x1024 S16x128x1024 [2] [1] [1] [2] [0] [0]

variable [Facts₀]

def dot_S16x128x2048_S16x2048x1024_S16x128x1024_2_1_1_2_0_0 : DotDims S16x128x2048 S16x2048x1024 S16x128x1024 where
  lhsContracting := [2]
  rhsContracting := [1]
  lhsNonContracting := [1]
  rhsNonContracting := [2]
  lhsBatch := [0]
  rhsBatch := [0]
  wf := dot_S16x128x2048_S16x2048x1024_S16x128x1024_2_1_1_2_0_0_wf

class Facts : Prop extends Facts₀ where

variable [Facts]
-- ==== Proof.Pool.lean ====
/-
  Mean pooling of token states over entity spans, as one function of the three argument arrays.

  For batch element b, entity e and feature h the result is the mapping-weighted sum over the 2048 tokens l of
  mapping[b, e, l] · doc[b, l, h], divided by lens[b, e].  Both programs compute exactly this expression on the
  extended reals (a product of two matrices per batch element, then a quotient by the entity's length); no law
  beyond the order-free finite sum is needed, so no finiteness of the inputs is used.
-/
import Idealize.ShloMosaic.PureOps.Ideal
import Idealize.ShloMosaic.Lib.ValueIdx

noncomputable section

namespace Cert.Pool

open Idealize.ShloMosaic Idealize.ShloMosaic.ValueIdx

/-- The pooled value at batch element `b`, entity `e`, feature `h`: the weighted token sum over the entity's length. -/
def pooledAt (doc : FVec Ideal ⟨3, ![16, 2048, 1024]⟩ .f32) (map : FVec Ideal ⟨3, ![16, 128, 2048]⟩ .f32)
    (lens : FVec Ideal ⟨2, ![16, 128]⟩ .f32) (b : Fin 16) (e : Fin 128) (h : Fin 1024) : EReal :=
  Ideal.div (∑ l : Fin 2048, map (ix3 b e l) * doc (ix3 b l h)) (lens (ix2 b e))

/-- The pooled array: `pooledAt` at the index's three coordinates. -/
def pooled (doc : FVec Ideal ⟨3, ![16, 2048, 1024]⟩ .f32) (map : FVec Ideal ⟨3, ![16, 128, 2048]⟩ .f32)
    (lens : FVec Ideal ⟨2, ![16, 128]⟩ .f32) : FVec Ideal ⟨3, ![16, 128, 1024]⟩ .f32 :=
  fun i => pooledAt doc map lens (i 0) (i 1) (i 2)

theorem pooled_ix3 (doc : FVec Ideal ⟨3, ![16, 2048, 1024]⟩ .f32) (map : FVec Ideal ⟨3, ![16, 128, 2048]⟩ .f32)
    (lens : FVec Ideal ⟨2, ![16, 128]⟩ .f32) (b : Fin 16) (e : Fin 128) (h : Fin 1024) :
    pooled doc map lens (ix3 b e h) = pooledAt doc map lens b e h := rfl

end Cert.Pool

end
-- ==== Proof.RefPool.lean ====
/-
  The reference computes the pooled array.

  Its four host operations are a batched matrix product (batch axis 0 of both operands, the token axis contracted),
  the lengths given a trailing unit axis and repeated along the feature axis, and a quotient.  Read at an index
  (b, e, h) the product is the sum over tokens l of mapping[b, e, l] · doc[b, l, h] and the repeated lengths are
  lens[b, e]; so the result is the pooled value there.
-/
import proofs.«174234_j9629316678012_1_alg».proof.Proof.Gen.ReferenceIdeal.Read
import proofs.«174234_j9629316678012_1_alg».proof.Proof.Pool

noncomputable section

namespace Cert.ReferenceIdeal.RefPool

open Cert.ReferenceIdeal Cert.ReferenceIdeal.Read Idealize.ShloMosaic Idealize.ShloMosaic.ValueIdx

/-- The left operand's index at output (b, e, h) and token l is (b, e, l). -/
theorem lidx_eq (i : S16x128x1024.Idx) (l : Fin 2048) : lidx_main_v0 i l = ix3 (i 0) (i 1) l :=
  funext fun a => Fin.ext (by match a with | ⟨0, _⟩ => rfl | ⟨1, _⟩ => rfl | ⟨2, _⟩ => rfl)

/-- The right operand's index at output (b, e, h) and token l is (b, l, h). -/
theorem ridx_eq (i : S16x128x1024.Idx) (l : Fin 2048) : ridx_main_v0 i l = ix3 (i 0) l (i 2) :=
  funext fun a => Fin.ext (by match a with | ⟨0, _⟩ => rfl | ⟨1, _⟩ => rfl | ⟨2, _⟩ => rfl)

/-- The repeated lengths at (b, e, h) are read at (b, e). -/
theorem lens_idx_eq (i : S16x128x1024.Idx) : idx_main_v1 (idx_main_v2 i) = ix2 (i 0) (i 1) :=
  funext fun a => Fin.ext (by match a with | ⟨0, _⟩ => rfl | ⟨1, _⟩ => rfl)

/-- The reference's last stage is the pooled array of its arguments. -/
theorem ref_eq (doc : (⟨S16x2048x1024, .f32⟩ : BufTy).Contents (Elt Ideal)) (map : (⟨S16x128x2048, .f32⟩ : BufTy).Contents (Elt Ideal))
    (lens : (⟨S16x128, .f32⟩ : BufTy).Contents (Elt Ideal)) :
    val_main_v3 (F := Ideal) doc map lens = Cert.Pool.pooled doc map lens := by
  funext i
  rw [val_main_v3_apply, val_main_v0_apply, val_main_v2_apply, val_main_v1_apply, lens_idx_eq]
  simp only [lidx_eq, ridx_eq]
  rfl

end Cert.ReferenceIdeal.RefPool

end
-- ==== Proof.Reads.lean ====
/-
  What a grid point's blocks are, as entries of the argument arrays.

  The grid has one point per batch element: at point t every window's block index is (b, 0, 0) with b the point's
  own number, and each block is the whole slab of its array at batch element b.  So an entry (0, p, l) of a block is
  the entry (b, p, l) of the array, and the entry (0, p, q) of the output block sits at (b, p, q) of the result.
  The third input array is not an argument: the host builds it from the lengths [16, 128] by giving them a trailing
  unit axis, so its entry (b, e, 0) is lens[b, e].
-/
import proofs.«174234_j9629316678012_1_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Reads

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The block indices over the grid: every window's block at point `t` is slab `t` of its array, and there are 16. -/
theorem idx_facts : ∀ t : Fin cfg0.N,
    win0_0.index t (0 : Fin 3) = win0_3.index t (0 : Fin 3) ∧ win0_0.index t (1 : Fin 3) = 0 ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) < 16 ∧ win0_3.index t (1 : Fin 3) = 0 ∧ win0_3.index t (2 : Fin 3) = 0 :=
  (by decide +kernel : ∀ t : Fin grid0.N, _)

/-- Every batch element is some point's slab. -/
theorem idx_onto : ∀ b : Fin 16, ∃ t : Fin cfg0.N, win0_3.index t (0 : Fin 3) = b.val :=
  (by decide +kernel : ∀ b : Fin 16, ∃ t : Fin grid0.N, win0_3.index t (0 : Fin 3) = b.val)

/-- Entry (u, p, l) of the mapping block at point `t` is the mapping at (b, p, l). -/
theorem map_blk_apply (c : Dev nD) (t : Fin cfg0.N) (b : Fin 16) (hb : win0_0.index t (0 : Fin 3) = b.val)
    (h1 : win0_0.index t (1 : Fin 3) = 0) (h2 : win0_0.index t (2 : Fin 3) = 0) (u : Fin 1) (p : Fin 128) (l : Fin 2048) :
    (iblk m c 0 t : Vec Ideal S1x128x2048 .f32) (ix3 u p l)
      = (m ((c : Thread nD τ).loc main_arg1) : S16x128x2048.Idx → EReal) (ix3 b p l) := by
  rw [← V_main_arg1 m c]
  unfold iblk
  rw [View.read_apply]
  show V m c main_arg1 _ = V m c main_arg1 _
  refine congrArg (V m c main_arg1) (funext fun a => Fin.ext ?_)
  have hu : u.val = 0 := by omega
  match a with
  | ⟨0, _⟩ => show win0_0.index t (0 : Fin 3) * 1 + 1 * u.val = b.val; omega
  | ⟨1, _⟩ => show win0_0.index t (1 : Fin 3) * 128 + 1 * p.val = p.val; omega
  | ⟨2, _⟩ => show win0_0.index t (2 : Fin 3) * 2048 + 1 * l.val = l.val; omega

/-- Entry (u, l, q) of the token-state block at point `t` is the token states at (b, l, q). -/
theorem doc_blk_apply (c : Dev nD) (t : Fin cfg0.N) (b : Fin 16) (hb : win0_1.index t (0 : Fin 3) = b.val)
    (h1 : win0_1.index t (1 : Fin 3) = 0) (h2 : win0_1.index t (2 : Fin 3) = 0) (u : Fin 1) (l : Fin 2048) (q : Fin 1024) :
    (iblk m c 1 t : Vec Ideal S1x2048x1024 .f32) (ix3 u l q)
      = (m ((c : Thread nD τ).loc main_arg0) : S16x2048x1024.Idx → EReal) (ix3 b l q) := by
  rw [← V_main_arg0 m c]
  unfold iblk
  rw [View.read_apply]
  show V m c main_arg0 _ = V m c main_arg0 _
  refine congrArg (V m c main_arg0) (funext fun a => Fin.ext ?_)
  have hu : u.val = 0 := by omega
  match a with
  | ⟨0, _⟩ => show win0_1.index t (0 : Fin 3) * 1 + 1 * u.val = b.val; omega
  | ⟨1, _⟩ => show win0_1.index t (1 : Fin 3) * 2048 + 1 * l.val = l.val; omega
  | ⟨2, _⟩ => show win0_1.index t (2 : Fin 3) * 1024 + 1 * q.val = q.val; omega

/-- The array the third window stages, as the region finds it: the lengths with a trailing unit axis. -/
theorem V_lens (c : Dev nD) :
    (V m c main_v0 : S16x128x1.Idx → EReal)
      = broadcastInDim S16x128x1 ![0, 1] Facts₀.bcast_S16x128_S16x128x1_0_1 (m ((c : Thread nD τ).loc main_arg2)) := by
  dsimp only [Gen.V, Gen.hostOps0]
  after_results

/-- The lengths with a trailing unit axis, read at (b, e, u), are the lengths at (b, e). -/
theorem lens_col_apply (x : S16x128.Idx → EReal) (b : Fin 16) (e : Fin 128) (u : Fin 1) :
    broadcastInDim S16x128x1 ![0, 1] Facts₀.bcast_S16x128_S16x128x1_0_1 x (ix3 b e u) = x (ix2 b e) :=
  broadcastInDim_apply _ Facts₀.bcast_S16x128_S16x128x1_0_1 x (ix3 b e u) (ix2 b e) (fun a => match a with
    | ⟨0, _⟩ => by show b.val = if (16 : Nat) = 1 then 0 else b.val; rw [if_neg (by decide)]
    | ⟨1, _⟩ => by show e.val = if (128 : Nat) = 1 then 0 else e.val; rw [if_neg (by decide)])

/-- Entry (u, p, v) of the lengths block at point `t` is the length of entity p of batch element b. -/
theorem lens_blk_apply (c : Dev nD) (t : Fin cfg0.N) (b : Fin 16) (hb : win0_2.index t (0 : Fin 3) = b.val)
    (h1 : win0_2.index t (1 : Fin 3) = 0) (h2 : win0_2.index t (2 : Fin 3) = 0) (u : Fin 1) (p : Fin 128) (v : Fin 1) :
    (iblk m c 2 t : Vec Ideal S1x128x1 .f32) (ix3 u p v)
      = (m ((c : Thread nD τ).loc main_arg2) : S16x128.Idx → EReal) (ix2 b p) := by
  rw [← lens_col_apply (m ((c : Thread nD τ).loc main_arg2)) b p v, ← V_lens m c]
  unfold iblk
  rw [View.read_apply]
  show V m c main_v0 _ = V m c main_v0 _
  refine congrArg (V m c main_v0) (funext fun a => Fin.ext ?_)
  have hu : u.val = 0 := by omega
  match a with
  | ⟨0, _⟩ => show win0_2.index t (0 : Fin 3) * 1 + 1 * u.val = b.val; omega
  | ⟨1, _⟩ => show win0_2.index t (1 : Fin 3) * 128 + 1 * p.val = p.val; omega
  | ⟨2, _⟩ => show win0_2.index t (2 : Fin 3) * 1 + 1 * v.val = v.val; omega

/-- Entry `j` of the output block at point `t` sits in the result at (b, j 1, j 2). -/
theorem out_emb (t : Fin cfg0.N) (b : Fin 16) (hb : win0_3.index t (0 : Fin 3) = b.val)
    (h1 : win0_3.index t (1 : Fin 3) = 0) (h2 : win0_3.index t (2 : Fin 3) = 0) (u : Fin 1) (p : Fin 128) (q : Fin 1024) :
    ((cfg0.win 3).blk t).view.emb (ix3 u p q) = (ix3 b p q : S16x128x1024.Idx) := by
  refine funext fun a => Fin.ext ?_
  have hu : u.val = 0 := by omega
  match a with
  | ⟨0, _⟩ => show win0_3.index t (0 : Fin 3) * 1 + 1 * u.val = b.val; omega
  | ⟨1, _⟩ => show win0_3.index t (1 : Fin 3) * 128 + 1 * p.val = p.val; omega
  | ⟨2, _⟩ => show win0_3.index t (2 : Fin 3) * 1024 + 1 * q.val = q.val; omega

end Cert.KernelIdeal.Reads

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.LibColumnBroadcast.lean ====
/- A general layout fact: a column broadcast over the lanes, read at an index. -/
import Idealize.ShloMosaic.Lib.Pipeline.Value
import Idealize.ShloMosaic.Lib.ValueIdx

namespace Cert.Lib

open Idealize.ShloMosaic Idealize.ShloMosaic.ValueIdx

/-- An `[a, 1]` array (one value per row, as a reduction that keeps its axis leaves it) broadcast to `[a, b]` reads, at
    `(p, c)`, row `p`'s one value, whatever the column `c`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.Tile.lean ====
/-
  One grid point's tile of the result, read at an index.

  At a grid point the body holds the mapping block [1, 128, 2048], the token-state block [1, 2048, 1024] and the
  lengths block [1, 128, 1] of one batch element.  It drops the leading unit axis of each, multiplies the two matrices
  into a zero accumulator (the change of float format on the way in is the identity on the extended reals), repeats
  the length column along the 1024 features, divides, and puts the unit axis back.  So at row p and feature q the tile
  is the sum over tokens l of mapping[0, p, l] · doc[0, l, q], divided by lens[0, p, 0].
-/
import proofs.«174234_j9629316678012_1_alg».proof.Proof.Gen.KernelIdeal.Skeleton
import proofs.«174234_j9629316678012_1_alg».proof.Proof.LibMatmul2
import proofs.«174234_j9629316678012_1_alg».proof.Proof.LibColumnBroadcast
import Idealize.ShloMosaic.Lib.ValueLayout

noncomputable section

namespace Cert.KernelIdeal.Tile

open Cert.KernelIdeal Cert.KernelIdeal.Gen Idealize.ShloMosaic Idealize.ShloMosaic.ValueIdx

/-- The tile at (p, q): the weighted token sum of row p against feature column q, over row p's length. -/
theorem tile_apply (x0 : Vec Ideal S1x128x2048 .f32) (x1 : Vec Ideal S1x2048x1024 .f32) (x2 : Vec Ideal S1x128x1 .f32)
    (u : Fin 1) (p : Fin 128) (q : Fin 1024) :
    k0_pay1 (F := Ideal) x0 x1 x2 (ix3 u p q)
      = Ideal.div (∑ l : Fin 2048, x0 (ix3 (0 : Fin 1) p l) * x1 (ix3 (0 : Fin 1) l q))
          (x2 (ix3 (0 : Fin 1) p (0 : Fin 1))) := by
  unfold k0_pay1
  refine (shapeCast_ab_1ab_apply _ _ u p q).trans ?_
  refine congrArg₂ Ideal.div ?_ ?_
  · refine (Cert.Lib.matmul2_zero_apply Facts₀.dot_S128x2048_S2048x1024_S128x1024_1_0_0_1_n_n_wf _ _ p q).trans ?_
    refine Finset.sum_congr rfl fun l _ => ?_
    exact congrArg₂ (· * ·) (shapeCast_1ab_ab_apply x0 _ p l) (shapeCast_1ab_ab_apply x1 _ l q)
  · refine (Cert.Lib.broadcastTo_a1_ab_apply _ _ p q).trans ?_
    exact shapeCast_1ab_ab_apply x2 _ p (0 : Fin 1)

end Cert.KernelIdeal.Tile

end
-- ==== Proof.Whole.lean ====
/-
  From the grid points' tiles to the whole result array.

  Point t writes back the tile of batch element t, and that tile is the slab t of the pooled array of the arguments:
  at (0, p, q) both are the sum over tokens l of mapping[t, p, l] · doc[t, l, q] over lens[t, p].  The sixteen slabs
  cover the result, so after the run the result array is the pooled array.
-/
import proofs.«174234_j9629316678012_1_alg».proof.Proof.Gen.KernelIdeal.Value
import proofs.«174234_j9629316678012_1_alg».proof.Proof.Reads
import proofs.«174234_j9629316678012_1_alg».proof.Proof.Tile
import proofs.«174234_j9629316678012_1_alg».proof.Proof.Pool

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- The pooled array of the arguments as launched on core `c`. -/
abbrev result (c : Dev nD) : S16x128x1024.Idx → EReal :=
  Cert.Pool.pooled (m ((c : Thread nD τ).loc main_arg0)) (m ((c : Thread nD τ).loc main_arg1)) (m ((c : Thread nD τ).loc main_arg2))

/-- The tile point `t` computes from its three blocks, at (p, q), is the pooled value of batch element `b` = t. -/
theorem tile_eq (c : Dev nD) (t : Fin cfg0.N) (b : Fin 16) (hb : win0_3.index t (0 : Fin 3) = b.val)
    (u : Fin 1) (p : Fin 128) (q : Fin 1024) :
    k0_pay1 (F := Ideal) (iblk m c 0 t) (iblk m c 1 t) (iblk m c 2 t) (ix3 u p q)
      = Cert.Pool.pooledAt (m ((c : Thread nD τ).loc main_arg0)) (m ((c : Thread nD τ).loc main_arg1))
          (m ((c : Thread nD τ).loc main_arg2)) b p q := by
  obtain ⟨e00, e01, e02, e10, e11, e12, e20, e21, e22, -, -, -⟩ := Reads.idx_facts t
  refine (Tile.tile_apply (iblk m c 0 t) (iblk m c 1 t) (iblk m c 2 t) u p q).trans ?_
  unfold Cert.Pool.pooledAt
  refine congrArg₂ Ideal.div (Finset.sum_congr rfl fun l _ => congrArg₂ (· * ·) ?_ ?_) ?_
  · exact Reads.map_blk_apply m c t b (e00.trans hb) e01 e02 0 p l
  · exact Reads.doc_blk_apply m c t b (e10.trans hb) e11 e12 0 l q
  · exact Reads.lens_blk_apply m c t b (e20.trans hb) e21 e22 0 p 0

/-- What point `t` writes back is block `t` of the pooled array. -/
theorem flushed_eq (c : Dev nD) (t : Fin cfg0.N) :
    (dats m 0 c).flushed 3 t = ((cfg0.win 3).blk t).view.read (Elt Ideal) (result m c) := by
  rw [Cert.KernelIdeal.Value.flushed3]
  unfold out0_3
  rw [View.canon_unit_zero hz]
  simp only [View.ld_unit_zero (S := S1x128x2048) hz, View.ld_unit_zero (S := S1x2048x1024) hz,
    View.ld_unit_zero (S := S1x128x1) hz]
  obtain ⟨-, -, -, -, -, -, -, -, -, hlt, h1, h2⟩ := Reads.idx_facts t
  refine funext fun (j : S1x128x1024.Idx) => ?_
  obtain ⟨u, p, q, rfl⟩ : ∃ (u : Fin 1) (p : Fin 128) (q : Fin 1024), j = ix3 u p q := ⟨j 0, j 1, j 2, eq_ix3 j⟩
  show k0_pay1 (iblk m c 0 t) (iblk m c 1 t) (iblk m c 2 t) (ix3 u p q)
    = result m c (((cfg0.win 3).blk t).view.emb (ix3 u p q))
  rw [Reads.out_emb t ⟨win0_3.index t (0 : Fin 3), hlt⟩ rfl h1 h2 u p q]
  exact tile_eq m c t ⟨win0_3.index t (0 : Fin 3), hlt⟩ rfl u p q

/-- An index of the result is in point `t`'s block iff each coordinate is in the block's range on its axis. -/
theorem mem_blk (t : Fin cfg0.N) (i : S16x128x1024.Idx) :
    i ∈ ((cfg0.win 3).blk t).view.set ↔ ∀ a : Fin 3, win0_3.index t a * S1x128x1024.size a ≤ (i a).val
      ∧ (i a).val < win0_3.index t a * S1x128x1024.size a + S1x128x1024.size a := by
  show i ∈ ((View.whole main_v1).slice (win0_3.rect t)).set ↔ _
  rw [View.set_slice_whole, Rect.mem_set_unit]
  exact Iff.rfl

/-- Every index of the result is in the block of the point that handles its batch element. -/
theorem covered (i : S16x128x1024.Idx) :
    ∃ t : Fin cfg0.N, (cfg0.win 3).flush t = true ∧ i ∈ ((cfg0.win 3).blk t).view.set := by
  have hi0 : (i 0).val < 16 := (i 0).isLt
  have hi1 : (i 1).val < 128 := (i 1).isLt
  have hi2 : (i 2).val < 1024 := (i 2).isLt
  obtain ⟨t, ht⟩ := Reads.idx_onto ⟨(i 0).val, hi0⟩
  have ht' : win0_3.index t (0 : Fin 3) = (i 0).val := ht
  obtain ⟨-, -, -, -, -, -, -, -, -, -, h1, h2⟩ := Reads.idx_facts t
  refine ⟨t, flush0_3 t, ?_⟩
  rw [mem_blk]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 128 ≤ (i 1).val ∧ (i 1).val < win0_3.index t (1 : Fin 3) * 128 + 128
    omega
  | ⟨2, _⟩ =>
    show win0_3.index t (2 : Fin 3) * 1024 ≤ (i 2).val ∧ (i 2).val < win0_3.index t (2 : Fin 3) * 1024 + 1024
    omega

/-- After the run the result array is the pooled array of the arguments. -/
theorem final (c : Dev nD) : (dats m 0 c).arrAt 3 cfg0.N = result m c :=
  (dats m 0 c).arrAt_eq_of_cover 3 (result m c) (fun t _ => flushed_eq m c t) covered

/-- The kernel's run: the result at the pooled array, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Whole

end
-- ==== Proof.lean ====
/-
  Mean pooling of token states over entity spans: a kernel that takes one batch element per grid point, multiplies
  the entity-to-token mapping [128, 2048] by the token states [2048, 1024] and divides each row by the entity's
  length, against the reference's batched matrix product over all 16 batch elements followed by the same quotient.

  On the extended reals both results are, at (b, e, h), the sum over tokens l of mapping[b, e, l] · doc[b, l, h]
  divided by lens[b, e] (`Cert.Pool.pooled`): the kernel's change of float format on the way into its product is the
  identity there, its zero accumulator adds nothing, and the two programs differ only in how the 16 slabs are laid
  out in time.  No algebraic law that fails at infinities is involved, so the finiteness of the inputs is not used.

  The three frames are the programs' runs with the result dropped; the idealization rewrote nothing, so its
  conjunct is trivial; the two runs end at the same pooled array of arguments that agree.
-/
import proofs.«174234_j9629316678012_1_alg».proof.Defs
import proofs.«174234_j9629316678012_1_alg».proof.Proof.Gen.Kernel
import proofs.«174234_j9629316678012_1_alg».proof.Proof.Gen.Kernel.Skeleton
import proofs.«174234_j9629316678012_1_alg».proof.Proof.Gen.Kernel.Launch
import proofs.«174234_j9629316678012_1_alg».proof.Proof.Gen.Kernel.Points
import proofs.«174234_j9629316678012_1_alg».proof.Proof.Gen.Kernel.Frame
import proofs.«174234_j9629316678012_1_alg».proof.Proof.Gen.KernelIdeal
import proofs.«174234_j9629316678012_1_alg».proof.Proof.Gen.KernelIdeal.Skeleton
import proofs.«174234_j9629316678012_1_alg».proof.Proof.Gen.KernelIdeal.Launch
import proofs.«174234_j9629316678012_1_alg».proof.Proof.Gen.KernelIdeal.Points
import proofs.«174234_j9629316678012_1_alg».proof.Proof.Gen.KernelIdeal.Frame
import proofs.«174234_j9629316678012_1_alg».proof.Proof.Gen.ReferenceIdeal
import proofs.«174234_j9629316678012_1_alg».proof.Proof.Gen.Pre_finite_inputs
import proofs.«174234_j9629316678012_1_alg».proof.Proof.Gen.KernelIdeal.Value
import proofs.«174234_j9629316678012_1_alg».proof.Proof.Gen.ReferenceIdeal.Run
import proofs.«174234_j9629316678012_1_alg».proof.Proof.Gen.ReferenceIdeal.Read
import proofs.«174234_j9629316678012_1_alg».proof.Proof.Pool
import proofs.«174234_j9629316678012_1_alg».proof.Proof.RefPool
import proofs.«174234_j9629316678012_1_alg».proof.Proof.Whole
import Idealize.ShloMosaic.Adequacy
import Idealize.ShloMosaic.Init

noncomputable section

namespace Cert.Proof

open Idealize.ShloMosaic Idealize.SL.Sem Cert.Kernel

/-- The kernel, as printed at the word level, runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end at the pooled array of their arguments, and the arguments agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefPool.ref_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
